-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S256x512 : Shape := ⟨2, ![256, 512]⟩
abbrev S256 : Shape := ⟨1, ![256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x2048x256 .f32) (main_arg1 : FVec F S16x2048x256 .f32) (main_arg2 : FVec F S256x512 .f32) (main_arg3 : FVec F S256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x2048x256 : Shape := ⟨3, ![16, 2048, 256]⟩
abbrev S256x512 : Shape := ⟨2, ![256, 512]⟩
abbrev S256 : Shape := ⟨1, ![256]⟩
abbrev S256x256 : Shape := ⟨2, ![256, 256]⟩
abbrev S16x2048x2048 : Shape := ⟨3, ![16, 2048, 2048]⟩
abbrev S1x2048x256 : Shape := ⟨3, ![1, 2048, 256]⟩
abbrev S1x512x256 : Shape := ⟨3, ![1, 512, 256]⟩
abbrev S1x2048x512 : Shape := ⟨3, ![1, 2048, 512]⟩
abbrev S2048x256 : Shape := ⟨2, ![2048, 256]⟩
abbrev S512x256 : Shape := ⟨2, ![512, 256]⟩
abbrev S2048x512 : Shape := ⟨2, ![2048, 512]⟩
abbrev S512 : Shape := ⟨1, ![512]⟩
abbrev S1x512 : Shape := ⟨2, ![1, 512]⟩
abbrev S1x256 : Shape := ⟨2, ![1, 256]⟩

abbrev nBuf : Space → Nat
  | .hbm => 10
  | .vmem => 13
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S256x512, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S16x2048x256, .f32⟩
  | .hbm, ⟨9, _⟩ => ⟨S16x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S1x512x256, .f32⟩
  | .local _ .vmem, ⟨3, _⟩ => ⟨S1x512x256, .f32⟩
  | .local _ .vmem, ⟨4, _⟩ => ⟨S256x256, .f32⟩
  | .local _ .vmem, ⟨5, _⟩ => ⟨S256x256, .f32⟩
  | .local _ .vmem, ⟨6, _⟩ => ⟨S256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x512, .f32⟩
  | .local _ .vmem, ⟨10, _⟩ => ⟨S1x2048x512, .f32⟩
  | .local _ .vmem, ⟨11, _⟩ => ⟨S2048x256, .f32⟩
  | .local _ .vmem, ⟨12, _⟩ => ⟨S2048x256, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_16 : BitVec 32 := 0#32
  let v31 : BitVec 1 := Scalar.cmpi .ne v30 c0_i32_16
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S256x512_S256x256_0_0 : S256x512.Slices ![0, 0] S256x256
  transposes_S256x256_S256x256_1_0 : S256x256.Transposes [1, 0] S256x256
  slices_S256x512_S256x256_0_256 : S256x512.Slices ![0, 256] S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  transposes_S512x256_p1_0_S256x512 : S512x256.Transposes [1, 0] S256x512
  reduces_S2048x512_S512 : S2048x512.Reduces [0] S512
  shapeCasts_S512_S1x512 : S512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  shapeCasts_S2048x256_S1x2048x256 : S2048x256.ShapeCasts S1x2048x256
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S16x2048x256.size a
  hwx0_1 : ∀ i : grid0.Coords, EltTy.bits .f32 = 32 ∨ (Rect.block (s := S16x2048x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S16x2048x256.size a
  hwx0_5 : ∀ i : grid0.Coords, EltTy.bits .f32 = 32 ∨ (Rect.block (s := S16x2048x256) S1x2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x512.size a ≤ S16x2048x2048.size a
  hwx0_6 : ∀ i : grid0.Coords, EltTy.bits .f32 = 32 ∨ (Rect.block (s := S16x2048x2048) S1x2048x512.size (cc0_transform_6 i) (hinb0_6 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x2048x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun _ => false | ⟨_ + 7, h⟩ => absurd h (Nat.not_lt.2 (Nat.le_add_left _ _))

class Facts : Prop extends Facts₀ where

variable [Facts]
-- ==== ReferenceIdeal.lean ====
abbrev S16x2048x256 : Shape := ⟨3, ![16, 2048, 256]⟩
abbrev S256x512 : Shape := ⟨2, ![256, 512]⟩
abbrev S256 : Shape := ⟨1, ![256]⟩
abbrev S16x2048x2048 : Shape := ⟨3, ![16, 2048, 2048]⟩
abbrev S_ : Shape := ⟨0, ![]⟩
abbrev S16x2048 : Shape := ⟨2, ![16, 2048]⟩
abbrev S16x1x2048 : Shape := ⟨3, ![16, 1, 2048]⟩
abbrev S16x2048x512 : Shape := ⟨3, ![16, 2048, 512]⟩
abbrev S1x1x256 : Shape := ⟨3, ![1, 1, 256]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S256x512, .f32⟩
  | .hbm, ⟨3, _⟩ => ⟨S256, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S16x1x2048, .f32⟩
  | .hbm, ⟨17, _⟩ => ⟨S16x2048x2048, .f32⟩
  | .hbm, ⟨18, _⟩ => ⟨S16x2048x2048, .f32⟩
  | .hbm, ⟨19, _⟩ => ⟨S16x2048x256, .f32⟩
  | .hbm, ⟨20, _⟩ => ⟨S16x2048x512, .f32⟩
  | .hbm, ⟨21, _⟩ => ⟨S16x2048x256, .f32⟩
  | .hbm, ⟨22, _⟩ => ⟨S1x1x256, .f32⟩
  | .hbm, ⟨23, _⟩ => ⟨S16x2048x256, .f32⟩
  | .hbm, ⟨24, _⟩ => ⟨S16x2048x256, .f32⟩
  | .hbm, ⟨25, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  concatenates_S16x2048x256_S16x2048x256_S16x2048x512_d2 : Shape.Concatenates [S16x2048x256, S16x2048x256] S16x2048x512 2
  bcast_S256_S1x1x256_2 : S256.BroadcastsInDim S1x1x256 (![2] : Fin 1 → Fin S1x1x256.rank)
  bcast_S1x1x256_S16x2048x256_0_1_2 : S1x1x256.BroadcastsInDim S16x2048x256 (![0, 1, 2] : Fin 3 → Fin S16x2048x256.rank)
  dot_S16x2048x256_S16x2048x256_S16x2048x2048_2_2_1_1_0_0_wf : DotDims.WF S16x2048x256 S16x2048x256 S16x2048x2048 [2] [2] [1] [1] [0] [0]
  dot_S16x2048x2048_S16x2048x256_S16x2048x256_2_1_1_2_0_0_wf : DotDims.WF S16x2048x2048 S16x2048x256 S16x2048x256 [2] [1] [1] [2] [0] [0]
  dot_S16x2048x512_S256x512_S16x2048x256_2_1_01_0_n_n_wf : DotDims.WF S16x2048x512 S256x512 S16x2048x256 [2] [1] [0, 1] [0] [] []

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf
def dot_S16x2048x512_S256x512_S16x2048x256_2_1_01_0_n_n : DotDims S16x2048x512 S256x512 S16x2048x256 where
  lhsContracting := [2]
  rhsContracting := [1]
  lhsNonContracting := [0, 1]
  rhsNonContracting := [0]
  lhsBatch := []
  rhsBatch := []
  wf := dot_S16x2048x512_S256x512_S16x2048x256_2_1_01_0_n_n_wf

class Facts : Prop extends Facts₀ where

variable [Facts]
-- ==== Proof.KernelPieces.lean ====
/-
  What each control case of the attention kernel's body leaves in the buffers that outlive a grid point, as
  the body's arithmetic applied to the blocks it was handed.  The body runs in three cases along the query-tile
  axis: the first tile of a batch (A: the energy accumulator is zeroed and the key block is cached before use),
  a middle tile (B) and the last tile (C: the accumulated energy, the cached key block and the two halves of the
  weight matrix produce the output block).  In every case the attention tile written is the softmax tile of the
  key block against the query tile; the accumulator ends at its previous contents (zero in case A) plus the
  tile's attention-weighted queries.  All statements hold for any float instance.
-/
import proofs.«166310_j5214090297909_2_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem

namespace Cert.KernelIdeal.Found

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The attention tile: the same in all three cases -/

/-- First tile of a batch: the attention block written is the softmax tile of the key block and the query tile. -/
theorem attn_A (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x2048x256 .f32) (harg7 : arg7.IsWhole) (arg8 : Memref sig .tc .vmem S1x2048x512 .f32) (harg8 : arg8.IsWhole) (arg9 : Memref sig .tc .vmem S2048x256 .f32) (harg9 : arg9.IsWhole) (arg10 : Memref sig .tc .vmem S2048x256 .bf16) (harg10 : arg10.IsWhole) (hc0 : cond0_0 i) (hc1 : ¬cond0_1 i) (x0 : Vec F S1x2048x256 .f32) (x1 : Vec F S1x512x256 .f32) (x2 : Vec F S256x256 .f32) (x3 : Vec F S256x256 .f32) (x4 : Vec F S256 .f32) :
    out0_A_6 c i arg2 harg2 arg3 harg3 arg4 harg4 arg5 harg5 arg6 harg6 arg7 harg7 arg8 harg8 arg9 harg9 arg10 harg10 hc0 hc1 x0 x1 x2 x3 x4 = k0_pay5 x0 x1 := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero (S := S1x2048x512) hz3]
  simp only [View.readAt_eq_ld, harg2.read_unread, harg3.read_unread, harg4.read_unread, harg5.read_unread, harg6.read_unread, harg9.read_unread, harg10.read_unread, View.ld_unit_zero (S := S1x2048x256) hz3, View.ld_unit_zero (S := S1x512x256) hz3, View.ld_unit_zero (S := S256x256) hz2, View.ld_unit_zero (S := S2048x256) hz2, View.ld_unit_zero (S := S256) hz1]

/-- Middle tile: the same softmax tile. -/
theorem attn_B (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x2048x256 .f32) (harg7 : arg7.IsWhole) (arg8 : Memref sig .tc .vmem S1x2048x512 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : ¬cond0_1 i) (x0 : Vec F S1x2048x256 .f32) (x1 : Vec F S1x512x256 .f32) (x2 : Vec F S256x256 .f32) (x3 : Vec F S256x256 .f32) (x4 : Vec F S256 .f32) (xs0 : Vec F S2048x256 .f32) (xs1 : Vec F S2048x256 .bf16) :
    out0_B_6 c i arg2 harg2 arg3 harg3 arg4 harg4 arg5 harg5 arg6 harg6 arg7 harg7 arg8 harg8 arg9 harg9 arg10 harg10 hc0 hc1 x0 x1 x2 x3 x4 xs0 xs1 = k0_pay5 x0 x1 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1x2048x512) hz3]
  simp only [View.readAt_eq_ld, harg2.read_unread, harg3.read_unread, harg4.read_unread, harg5.read_unread, harg6.read_unread, harg9.read_unread, harg10.read_unread, View.ld_unit_zero (S := S1x2048x256) hz3, View.ld_unit_zero (S := S1x512x256) hz3, View.ld_unit_zero (S := S256x256) hz2, View.ld_unit_zero (S := S2048x256) hz2, View.ld_unit_zero (S := S256) hz1]

/-- Last tile: the same softmax tile. -/
theorem attn_C (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x2048x256 .f32) (harg7 : arg7.IsWhole) (arg8 : Memref sig .tc .vmem S1x2048x512 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i) (x0 : Vec F S1x2048x256 .f32) (x1 : Vec F S1x512x256 .f32) (x2 : Vec F S256x256 .f32) (x3 : Vec F S256x256 .f32) (x4 : Vec F S256 .f32) (xs0 : Vec F S2048x256 .f32) (xs1 : Vec F S2048x256 .bf16) :
    out0_C_6 c i arg2 harg2 arg3 harg3 arg4 harg4 arg5 harg5 arg6 harg6 arg7 harg7 arg8 harg8 arg9 harg9 arg10 harg10 hc0 hc1 x0 x1 x2 x3 x4 xs0 xs1 = k0_pay5 x0 x1 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1x2048x512) hz3]
  simp only [View.readAt_eq_ld, harg2.read_unread, harg3.read_unread, harg4.read_unread, harg5.read_unread, harg6.read_unread, harg9.read_unread, harg10.read_unread, View.ld_unit_zero (S := S1x2048x256) hz3, View.ld_unit_zero (S := S1x512x256) hz3, View.ld_unit_zero (S := S256x256) hz2, View.ld_unit_zero (S := S2048x256) hz2, View.ld_unit_zero (S := S256) hz1]

/-! ## The energy accumulator -/

/-- First tile: the accumulator is zeroed, read back, and left at zero plus the tile's contribution. -/
theorem energy_A (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x2048x256 .f32) (harg7 : arg7.IsWhole) (arg8 : Memref sig .tc .vmem S1x2048x512 .f32) (harg8 : arg8.IsWhole) (arg9 : Memref sig .tc .vmem S2048x256 .f32) (harg9 : arg9.IsWhole) (arg10 : Memref sig .tc .vmem S2048x256 .bf16) (harg10 : arg10.IsWhole) (hc0 : cond0_0 i) (hc1 : ¬cond0_1 i) (x0 : Vec F S1x2048x256 .f32) (x1 : Vec F S1x512x256 .f32) (x2 : Vec F S256x256 .f32) (x3 : Vec F S256x256 .f32) (x4 : Vec F S256 .f32) :
    sout0_A_0 c i arg2 harg2 arg3 harg3 arg4 harg4 arg5 harg5 arg6 harg6 arg7 harg7 arg8 harg8 arg9 harg9 arg10 harg10 hc0 hc1 x0 x1 x2 x3 x4 = k0_pay6 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x256) hz2, View.readCov_unit_zero (S := S2048x256) _ hz2]
  simp only [View.readAt_eq_ld, harg2.read_unread, harg3.read_unread, harg4.read_unread, harg5.read_unread, harg6.read_unread, harg9.read_unread, harg10.read_unread, View.ld_unit_zero (S := S1x2048x256) hz3, View.ld_unit_zero (S := S1x512x256) hz3, View.ld_unit_zero (S := S256x256) hz2, View.ld_unit_zero (S := S2048x256) hz2, View.ld_unit_zero (S := S256) hz1]

/-- Middle tile: the accumulator's previous contents plus the tile's contribution. -/
theorem energy_B (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x2048x256 .f32) (harg7 : arg7.IsWhole) (arg8 : Memref sig .tc .vmem S1x2048x512 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : ¬cond0_1 i) (x0 : Vec F S1x2048x256 .f32) (x1 : Vec F S1x512x256 .f32) (x2 : Vec F S256x256 .f32) (x3 : Vec F S256x256 .f32) (x4 : Vec F S256 .f32) (xs0 : Vec F S2048x256 .f32) (xs1 : Vec F S2048x256 .bf16) :
    sout0_B_0 c i arg2 harg2 arg3 harg3 arg4 harg4 arg5 harg5 arg6 harg6 arg7 harg7 arg8 harg8 arg9 harg9 arg10 harg10 hc0 hc1 x0 x1 x2 x3 x4 xs0 xs1 = k0_pay6 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S2048x256) hz2]
  simp only [View.readAt_eq_ld, harg2.read_unread, harg3.read_unread, harg4.read_unread, harg5.read_unread, harg6.read_unread, harg9.read_unread, harg10.read_unread, View.ld_unit_zero (S := S1x2048x256) hz3, View.ld_unit_zero (S := S1x512x256) hz3, View.ld_unit_zero (S := S256x256) hz2, View.ld_unit_zero (S := S2048x256) hz2, View.ld_unit_zero (S := S256) hz1]

/-- Last tile: likewise. -/
theorem energy_C (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x2048x256 .f32) (harg7 : arg7.IsWhole) (arg8 : Memref sig .tc .vmem S1x2048x512 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i) (x0 : Vec F S1x2048x256 .f32) (x1 : Vec F S1x512x256 .f32) (x2 : Vec F S256x256 .f32) (x3 : Vec F S256x256 .f32) (x4 : Vec F S256 .f32) (xs0 : Vec F S2048x256 .f32) (xs1 : Vec F S2048x256 .bf16) :
    sout0_C_0 c i arg2 harg2 arg3 harg3 arg4 harg4 arg5 harg5 arg6 harg6 arg7 harg7 arg8 harg8 arg9 harg9 arg10 harg10 hc0 hc1 x0 x1 x2 x3 x4 xs0 xs1 = k0_pay6 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S2048x256) hz2]
  simp only [View.readAt_eq_ld, harg2.read_unread, harg3.read_unread, harg4.read_unread, harg5.read_unread, harg6.read_unread, harg9.read_unread, harg10.read_unread, View.ld_unit_zero (S := S1x2048x256) hz3, View.ld_unit_zero (S := S1x512x256) hz3, View.ld_unit_zero (S := S256x256) hz2, View.ld_unit_zero (S := S2048x256) hz2, View.ld_unit_zero (S := S256) hz1]

/-! ## The cached key block -/

/-- First tile: the cache takes the key block (its narrowing to the matmul's input format). -/
theorem keyc_A (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x2048x256 .f32) (harg7 : arg7.IsWhole) (arg8 : Memref sig .tc .vmem S1x2048x512 .f32) (harg8 : arg8.IsWhole) (arg9 : Memref sig .tc .vmem S2048x256 .f32) (harg9 : arg9.IsWhole) (arg10 : Memref sig .tc .vmem S2048x256 .bf16) (harg10 : arg10.IsWhole) (hc0 : cond0_0 i) (hc1 : ¬cond0_1 i) (x0 : Vec F S1x2048x256 .f32) (x1 : Vec F S1x512x256 .f32) (x2 : Vec F S256x256 .f32) (x3 : Vec F S256x256 .f32) (x4 : Vec F S256 .f32) :
    sout0_A_1 c i arg2 harg2 arg3 harg3 arg4 harg4 arg5 harg5 arg6 harg6 arg7 harg7 arg8 harg8 arg9 harg9 arg10 harg10 hc0 hc1 x0 x1 x2 x3 x4 = k0_pay2 x0 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero (S := S2048x256) hz2]
  simp only [View.readAt_eq_ld, harg2.read_unread, harg3.read_unread, harg4.read_unread, harg5.read_unread, harg6.read_unread, harg9.read_unread, harg10.read_unread, View.ld_unit_zero (S := S1x2048x256) hz3, View.ld_unit_zero (S := S1x512x256) hz3, View.ld_unit_zero (S := S256x256) hz2, View.ld_unit_zero (S := S2048x256) hz2, View.ld_unit_zero (S := S256) hz1]

/-! ## The output block -/

/-- Last tile: the output block is the final linear layer and tanh of the accumulator as this tile leaves it,
    the cached key block, the two weight halves and the bias. -/
theorem out_C (c : Dev nD) (i : grid0.Coords) (arg2 : Memref sig .tc .vmem S1x2048x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x2048x256 .f32) (harg7 : arg7.IsWhole) (arg8 : Memref sig .tc .vmem S1x2048x512 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i) (x0 : Vec F S1x2048x256 .f32) (x1 : Vec F S1x512x256 .f32) (x2 : Vec F S256x256 .f32) (x3 : Vec F S256x256 .f32) (x4 : Vec F S256 .f32) (xs0 : Vec F S2048x256 .f32) (xs1 : Vec F S2048x256 .bf16) :
    out0_C_5 c i arg2 harg2 arg3 harg3 arg4 harg4 arg5 harg5 arg6 harg6 arg7 harg7 arg8 harg8 arg9 harg9 arg10 harg10 hc0 hc1 x0 x1 x2 x3 x4 xs0 xs1 = k0_pay7 (k0_pay6 x0 x1 xs0) x2 x3 xs1 x4 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1x2048x256) hz3, View.readCov_unit_zero (S := S2048x256) _ hz2]
  simp only [View.readAt_eq_ld, harg2.read_unread, harg3.read_unread, harg4.read_unread, harg5.read_unread, harg6.read_unread, harg9.read_unread, harg10.read_unread, View.ld_unit_zero (S := S1x2048x256) hz3, View.ld_unit_zero (S := S1x512x256) hz3, View.ld_unit_zero (S := S256x256) hz2, View.ld_unit_zero (S := S2048x256) hz2, View.ld_unit_zero (S := S256) hz1]

end Cert.KernelIdeal.Found

end
-- ==== Proof.KernelPoints.lean ====
/-
  What the attention kernel's buffers hold after each grid point, as the body's arithmetic applied to the
  point's blocks.  A grid point is a (batch, query tile) pair; the four tiles of a batch run consecutively.
  After any point the attention staging buffer holds that point's softmax tile.  The energy accumulator
  restarts from zero at a batch's first tile and otherwise adds the tile's contribution to what the point
  before left; the key cache is filled at the first tile and kept afterwards; at the last tile the output block
  is computed from the accumulator, the cache, the weight halves and the bias.  All statements hold for any
  float instance.
-/
import proofs.«166310_j5214090297909_2_alg».proof.Proof.KernelPieces

noncomputable section

open Idealize.ShloMosaic Idealize.ShloMosaic.TcCoe Idealize.SL.Sem

namespace Cert.KernelIdeal.AtPoint

open Cert.KernelIdeal Cert.KernelIdeal.Gen Cert.KernelIdeal.Found

variable {F : FTy → Type} [FloatOps F]
variable (m : (ℓ : Loc nD τ sig) → Buf (Elt F) ℓ)

/-- After every point the attention buffer holds the softmax tile of the point's key block and query tile. -/
theorem attn_at (c : Dev nD) (t : Fin cfg0.N) :
    (outsAt0 m c t.val t.isLt).2.1 = k0_pay5 (iblk m c 0 t) (iblk m c 1 t) := by
  have hN : t.val < 64 := lt_of_lt_of_eq t.isLt (show cfg0.N = 64 from N_0)
  by_cases h0 : t.val % 4 = 0
  · have h1 : ¬t.val % 4 = 3 := by omega
    rw [outsAt0_A m c t h0 h1]; dsimp only
    exact attn_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)
  · by_cases h1 : t.val % 4 = 3
    · rw [outsAt0_C m c t h0 h1]; dsimp only
      exact attn_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) _ _
    · rw [outsAt0_B m c t h0 h1]; dsimp only
      exact attn_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) _ _

/-- At a batch's first tile the accumulator ends at zero plus the tile's contribution. -/
theorem energy_first (c : Dev nD) (t : Fin cfg0.N) (h0 : t.val % 4 = 0) :
    (outsAt0 m c t.val t.isLt).2.2.1 = k0_pay6 (iblk m c 0 t) (iblk m c 1 t) (k0_pay1 (F := F)) := by
  have h1 : ¬t.val % 4 = 3 := by omega
  rw [outsAt0_A m c t h0 h1]; dsimp only
  exact energy_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

/-- At a batch's first tile the key cache takes the key block. -/
theorem keyc_first (c : Dev nD) (t : Fin cfg0.N) (h0 : t.val % 4 = 0) :
    (outsAt0 m c t.val t.isLt).2.2.2 = k0_pay2 (iblk m c 0 t) := by
  have h1 : ¬t.val % 4 = 3 := by omega
  rw [outsAt0_A m c t h0 h1]; dsimp only
  exact keyc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

/-- At a later tile the accumulator ends at what the point before left plus the tile's contribution. -/
theorem energy_next (c : Dev nD) (n : ℕ) (hn : n + 1 < cfg0.N) (h0 : ¬(n + 1) % 4 = 0) :
    (outsAt0 m c (n + 1) hn).2.2.1
      = k0_pay6 (iblk m c 0 (⟨n + 1, hn⟩ : Fin cfg0.N)) (iblk m c 1 (⟨n + 1, hn⟩ : Fin cfg0.N)) (outsAt0 m c n (Nat.lt_of_succ_lt hn)).2.2.1 := by
  by_cases h1 : (n + 1) % 4 = 3
  · rw [outsAt0_C m c (⟨n + 1, hn⟩ : Fin cfg0.N) h0 h1]; dsimp only
    exact energy_C c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (outsAt0 m c n (Nat.lt_of_succ_lt hn)).2.2.1 (outsAt0 m c n (Nat.lt_of_succ_lt hn)).2.2.2
  · rw [outsAt0_B m c (⟨n + 1, hn⟩ : Fin cfg0.N) h0 h1]; dsimp only
    exact energy_B c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (outsAt0 m c n (Nat.lt_of_succ_lt hn)).2.2.1 (outsAt0 m c n (Nat.lt_of_succ_lt hn)).2.2.2

/-- At a later tile the key cache is what the point before left. -/
theorem keyc_next (c : Dev nD) (n : ℕ) (hn : n + 1 < cfg0.N) (h0 : ¬(n + 1) % 4 = 0) :
    (outsAt0 m c (n + 1) hn).2.2.2 = (outsAt0 m c n (Nat.lt_of_succ_lt hn)).2.2.2 := by
  by_cases h1 : (n + 1) % 4 = 3
  · rw [outsAt0_C m c (⟨n + 1, hn⟩ : Fin cfg0.N) h0 h1]; rfl
  · rw [outsAt0_B m c (⟨n + 1, hn⟩ : Fin cfg0.N) h0 h1]; rfl

/-- At a batch's last tile the output block is the final layer of the accumulator as this tile leaves it. -/
theorem out_last (c : Dev nD) (n : ℕ) (hn : n + 1 < cfg0.N) (h1 : (n + 1) % 4 = 3) :
    (outsAt0 m c (n + 1) hn).1
      = k0_pay7 (outsAt0 m c (n + 1) hn).2.2.1 (iblk m c 2 (⟨n + 1, hn⟩ : Fin cfg0.N)) (iblk m c 3 (⟨n + 1, hn⟩ : Fin cfg0.N))
          (outsAt0 m c n (Nat.lt_of_succ_lt hn)).2.2.2 (iblk m c 4 (⟨n + 1, hn⟩ : Fin cfg0.N)) := by
  have h0 : ¬(n + 1) % 4 = 0 := by omega
  rw [energy_next m c n hn h0]
  rw [outsAt0_C m c (⟨n + 1, hn⟩ : Fin cfg0.N) h0 h1]; dsimp only
  exact out_C c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (outsAt0 m c n (Nat.lt_of_succ_lt hn)).2.2.1 (outsAt0 m c n (Nat.lt_of_succ_lt hn)).2.2.2

/-- At a batch's last tile the output block is the final layer of the four tiles' contributions accumulated from
    zero in order, the key block cached at the first tile, the weight halves and the bias. -/
theorem out_at (c : Dev nD) (n : ℕ) (hn : n + 2 + 1 < cfg0.N) (h0 : n % 4 = 0) :
    (outsAt0 m c (n + 2 + 1) hn).1
      = k0_pay7
          (k0_pay6 (iblk m c 0 (⟨n + 2 + 1, hn⟩ : Fin cfg0.N)) (iblk m c 1 (⟨n + 2 + 1, hn⟩ : Fin cfg0.N))
            (k0_pay6 (iblk m c 0 (⟨n + 1 + 1, by omega⟩ : Fin cfg0.N)) (iblk m c 1 (⟨n + 1 + 1, by omega⟩ : Fin cfg0.N))
              (k0_pay6 (iblk m c 0 (⟨n + 1, by omega⟩ : Fin cfg0.N)) (iblk m c 1 (⟨n + 1, by omega⟩ : Fin cfg0.N))
                (k0_pay6 (iblk m c 0 (⟨n, by omega⟩ : Fin cfg0.N)) (iblk m c 1 (⟨n, by omega⟩ : Fin cfg0.N)) (k0_pay1 (F := F))))))
          (iblk m c 2 (⟨n + 2 + 1, hn⟩ : Fin cfg0.N)) (iblk m c 3 (⟨n + 2 + 1, hn⟩ : Fin cfg0.N)) (k0_pay2 (iblk m c 0 (⟨n, by omega⟩ : Fin cfg0.N))) (iblk m c 4 (⟨n + 2 + 1, hn⟩ : Fin cfg0.N)) := by
  have e3 := out_last m c (n + 2) hn (by omega)
  have a3 := energy_next m c (n + 2) hn (by omega)
  have a2 := energy_next m c (n + 1) (by omega) (by omega)
  have a1 := energy_next m c n (by omega) (by omega)
  have a0 := energy_first m c (⟨n, by omega⟩ : Fin cfg0.N) h0
  have k2 := keyc_next m c (n + 1) (by omega) (by omega)
  have k1 := keyc_next m c n (by omega) (by omega)
  have k0 := keyc_first m c (⟨n, by omega⟩ : Fin cfg0.N) h0
  rw [e3, a3, a2, a1, k2, k1]
  exact congrArg₂ (fun e kc => k0_pay7
      (k0_pay6 (iblk m c 0 (⟨n + 2 + 1, hn⟩ : Fin cfg0.N)) (iblk m c 1 (⟨n + 2 + 1, hn⟩ : Fin cfg0.N))
        (k0_pay6 (iblk m c 0 (⟨n + 1 + 1, by omega⟩ : Fin cfg0.N)) (iblk m c 1 (⟨n + 1 + 1, by omega⟩ : Fin cfg0.N))
          (k0_pay6 (iblk m c 0 (⟨n + 1, by omega⟩ : Fin cfg0.N)) (iblk m c 1 (⟨n + 1, by omega⟩ : Fin cfg0.N)) e)))
      (iblk m c 2 (⟨n + 2 + 1, hn⟩ : Fin cfg0.N)) (iblk m c 3 (⟨n + 2 + 1, hn⟩ : Fin cfg0.N)) kc (iblk m c 4 (⟨n + 2 + 1, hn⟩ : Fin cfg0.N))) a0 k0

end Cert.KernelIdeal.AtPoint

end
-- ==== Proof.AttnSpec.lean ====
/-
  The attention layer as one function of its four argument arrays, element by element, over the extended reals.

    score (b, k, q)   = Σ_d key (b, k, d) · query (b, q, d)
    attn (b, k, q)    = the softmax of the column k' ↦ score (b, k', q), at k      (a softmax over the KEY axis)
    energy (b, k, d)  = Σ_q attn (b, k, q) · query (b, q, d)
    out (b, k, d)     = tanh (Σ_e energy (b, k, e) · W (d, e) + Σ_e key (b, k, e) · W (d, 256 + e) + bias d)

  The softmax of a column is exp (s k - max s) / Σ_k' exp (s k' - max s), the maximum taken from -∞.
  Two re-groupings of finite sums relate the tiled computation to this form: a sum over the 2048 queries is the
  sum of its four tiles of 512, and a sum over the 512 concatenated features is the sum of its two halves.  Both hold
  in any commutative monoid, so on the extended reals they need no finiteness.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- The f32 pattern of -∞, the value both maxima start from. -/
abbrev negInf : EReal := Ideal.ofBits .f32 0xFF800000#32

/-- -∞ is the unit of the maximum. -/
theorem max_negInf (x : EReal) : max negInf x = x := by
  simp [negInf, Ideal.ofBits, Ideal.ieee]

/-- The maximum of a column of 2048 scores, from -∞. -/
def colmax (s : Fin 2048 → EReal) : EReal := (Finset.univ : Finset (Fin 2048)).fold max negInf s

/-- The softmax of a column of 2048 scores, at row `k`. -/
def softcol (s : Fin 2048 → EReal) (k : Fin 2048) : EReal :=
  Ideal.div (Ideal.exp (s k - colmax s)) (∑ k' : Fin 2048, Ideal.exp (s k' - colmax s))

/-- Query `q'` of tile `j` is query `512 j + q'`. -/
def qidx (j : Fin 4) (q : Fin 512) : Fin 2048 := ⟨512 * j.val + q.val, by omega⟩

/-- A sum over the 2048 queries is the sum of its four tiles. -/
theorem sum_tiles {M : Type*} [AddCommMonoid M] (f : Fin 2048 → M) :
    ∑ q : Fin 2048, f q
      = ∑ q' : Fin 512, f (qidx 0 q') + ∑ q' : Fin 512, f (qidx 1 q') + ∑ q' : Fin 512, f (qidx 2 q')
        + ∑ q' : Fin 512, f (qidx 3 q') := by
  have e : ∀ (j : Fin 4) (q' : Fin 512), (finProdFinEquiv (j, q') : Fin 2048) = qidx j q' := fun j q' =>
    Fin.ext (by show q'.val + 512 * j.val = 512 * j.val + q'.val; omega)
  rw [← Equiv.sum_comp (finProdFinEquiv : Fin 4 × Fin 512 ≃ Fin 2048) f, Fintype.sum_prod_type, Fin.sum_univ_four]
  simp only [e]

/-- Feature `e` of the first half of the concatenated features. -/
def wlo (e : Fin 256) : Fin 512 := Fin.castAdd 256 e
/-- Feature `e` of the second half: feature `256 + e`. -/
def whi (e : Fin 256) : Fin 512 := Fin.natAdd 256 e

theorem wlo_val (e : Fin 256) : (wlo e).val = e.val := rfl
theorem whi_val (e : Fin 256) : (whi e).val = 256 + e.val := rfl

/-- A sum over the 512 concatenated features is the sum of its two halves. -/
theorem sum_halves {M : Type*} [AddCommMonoid M] (f : Fin 512 → M) :
    ∑ e : Fin 512, f e = ∑ e : Fin 256, f (wlo e) + ∑ e : Fin 256, f (whi e) :=
  Fin.sum_univ_add (a := 256) (b := 256) f

/-- The arrays' types: key and query, the weight matrix, the bias. -/
abbrev Arr3 : Type := (⟨3, ![16, 2048, 256]⟩ : Shape).Idx → EReal
abbrev ArrW : Type := (⟨2, ![256, 512]⟩ : Shape).Idx → EReal
abbrev ArrB : Type := (⟨1, ![256]⟩ : Shape).Idx → EReal

def score (K Q : Arr3) (b : Fin 16) (k q : Fin 2048) : EReal := ∑ d : Fin 256, K (ix3 b k d) * Q (ix3 b q d)

def attn (K Q : Arr3) (b : Fin 16) (k q : Fin 2048) : EReal := softcol (fun k' => score K Q b k' q) k

def energy (K Q : Arr3) (b : Fin 16) (k : Fin 2048) (d : Fin 256) : EReal :=
  ∑ q : Fin 2048, attn K Q b k q * Q (ix3 b q d)

def out (K Q : Arr3) (W : ArrW) (B : ArrB) (b : Fin 16) (k : Fin 2048) (d : Fin 256) : EReal :=
  Ideal.tanh ((∑ e : Fin 256, energy K Q b k e * W (ix2 d (wlo e)) + ∑ e : Fin 256, K (ix3 b k e) * W (ix2 d (whi e)))
    + B (ix1 d))

/-- The two result arrays. -/
def outArr (K Q : Arr3) (W : ArrW) (B : ArrB) : (⟨3, ![16, 2048, 256]⟩ : Shape).Idx → EReal :=
  fun i => out K Q W B (i 0) (i 1) (i 2)
def attnArr (K Q : Arr3) : (⟨3, ![16, 2048, 2048]⟩ : Shape).Idx → EReal :=
  fun i => attn K Q (i 0) (i 1) (i 2)

end Cert.AttnSpec

end
-- ==== Proof.KernelPayload.lean ====
/-
  The attention kernel's arithmetic read at an entry, over the extended reals.  The body computes, from a key
  block x0 [1, 2048, 256] and a query tile x1 [1, 512, 256]:
    the score tile   s (k, q)   = Σ_d x0 (0, k, d) · x1 (0, q, d)            (a matrix product with the transposed tile),
    the softmax tile a (k, q)   = the softmax of the column k' ↦ s (k', q), at k,
    the accumulator  acc (k, d) + Σ_q a (k, q) · x1 (0, q, d),
  and at a batch's last tile, from the accumulated energy e, the cached key block kc, the two transposed weight
  halves w1, w2 and the bias:  tanh (Σ_e' e (k, e') · w1 (e', d) + Σ_e' kc (k, e') · w2 (e', d) + bias d).
  A narrowing of the float format is the identity on the extended reals, so the low-precision matrix products read
  like the others.
-/
import proofs.«166310_j5214090297909_2_alg».proof.Proof.Gen.KernelIdeal.Skeleton
import proofs.«166310_j5214090297909_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.AttnSpec

/-! ## The three matrix products at an entry -/

/-- The `[2048, 256] × [256, 512]` matrix product into a zero accumulator, at entry `(i, j)`: the sum over the
    contracted coordinate of the operands' products. -/
theorem mm_score {φ₁ φ₂ : FTy} (l : FVec Ideal S2048x256 φ₁) (r : FVec Ideal S256x512 φ₂) (prec : Option ContractPrecision)
    (i : Fin 2048) (j : Fin 512) :
    matmul dot_S2048x256_S256x512_S2048x512_1_0_0_1_n_n prec l r (constant S2048x512 .f32 0x00000000#32) (ix2 i j) = ∑ k : Fin 256, l (ix2 i k) * r (ix2 k j) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 i j) ((contrEquiv1 dot_S2048x256_S256x512_S2048x512_1_0_0_1_n_n 256 rfl rfl).symm k) = ix2 i k := funext fun a => Fin.ext (by
    match a with
    | ⟨0, _⟩ =>
      show (dot_S2048x256_S256x512_S2048x512_1_0_0_1_n_n.lhsIdx (ix2 i j) _ 0).val = i.val
      unfold DotDims.lhsIdx
      rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
      rfl
    | ⟨1, _⟩ => exact (dot_S2048x256_S256x512_S2048x512_1_0_0_1_n_n.lhsIdx_val_of_single rfl _ _).trans hk)
  have er : dot_S2048x256_S256x512_S2048x512_1_0_0_1_n_n.rhsIdx (ix2 i j) ((contrEquiv1 dot_S2048x256_S256x512_S2048x512_1_0_0_1_n_n 256 rfl rfl).symm k) = ix2 k j := funext fun a => Fin.ext (by
    match a with
    | ⟨0, _⟩ => exact (dot_S2048x256_S256x512_S2048x512_1_0_0_1_n_n.rhsIdx_val_of_single rfl _ _).trans hk
    | ⟨1, _⟩ =>
      show (dot_S2048x256_S256x512_S2048x512_1_0_0_1_n_n.rhsIdx (ix2 i j) _ 1).val = j.val
      unfold DotDims.rhsIdx
      rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
      rfl)
  rw [el, er]

/-- The `[2048, 512] × [512, 256]` matrix product into a zero accumulator, at entry `(i, j)`: the sum over the
    contracted coordinate of the operands' products. -/
theorem mm_energy {φ₁ φ₂ : FTy} (l : FVec Ideal S2048x512 φ₁) (r : FVec Ideal S512x256 φ₂) (prec : Option ContractPrecision)
    (i : Fin 2048) (j : Fin 256) :
    matmul dot_S2048x512_S512x256_S2048x256_1_0_0_1_n_n prec l r (constant S2048x256 .f32 0x00000000#32) (ix2 i j) = ∑ k : Fin 512, l (ix2 i k) * r (ix2 k j) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 i j) ((contrEquiv1 dot_S2048x512_S512x256_S2048x256_1_0_0_1_n_n 512 rfl rfl).symm k) = ix2 i k := funext fun a => Fin.ext (by
    match a with
    | ⟨0, _⟩ =>
      show (dot_S2048x512_S512x256_S2048x256_1_0_0_1_n_n.lhsIdx (ix2 i j) _ 0).val = i.val
      unfold DotDims.lhsIdx
      rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
      rfl
    | ⟨1, _⟩ => exact (dot_S2048x512_S512x256_S2048x256_1_0_0_1_n_n.lhsIdx_val_of_single rfl _ _).trans hk)
  have er : dot_S2048x512_S512x256_S2048x256_1_0_0_1_n_n.rhsIdx (ix2 i j) ((contrEquiv1 dot_S2048x512_S512x256_S2048x256_1_0_0_1_n_n 512 rfl rfl).symm k) = ix2 k j := funext fun a => Fin.ext (by
    match a with
    | ⟨0, _⟩ => exact (dot_S2048x512_S512x256_S2048x256_1_0_0_1_n_n.rhsIdx_val_of_single rfl _ _).trans hk
    | ⟨1, _⟩ =>
      show (dot_S2048x512_S512x256_S2048x256_1_0_0_1_n_n.rhsIdx (ix2 i j) _ 1).val = j.val
      unfold DotDims.rhsIdx
      rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
      rfl)
  rw [el, er]

/-- The `[2048, 256] × [256, 256]` matrix product into a zero accumulator, at entry `(i, j)`: the sum over the
    contracted coordinate of the operands' products. -/
theorem mm_linear {φ₁ φ₂ : FTy} (l : FVec Ideal S2048x256 φ₁) (r : FVec Ideal S256x256 φ₂) (prec : Option ContractPrecision)
    (i : Fin 2048) (j : Fin 256) :
    matmul dot_S2048x256_S256x256_S2048x256_1_0_0_1_n_n prec l r (constant S2048x256 .f32 0x00000000#32) (ix2 i j) = ∑ k : Fin 256, l (ix2 i k) * r (ix2 k j) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 i j) ((contrEquiv1 dot_S2048x256_S256x256_S2048x256_1_0_0_1_n_n 256 rfl rfl).symm k) = ix2 i k := funext fun a => Fin.ext (by
    match a with
    | ⟨0, _⟩ =>
      show (dot_S2048x256_S256x256_S2048x256_1_0_0_1_n_n.lhsIdx (ix2 i j) _ 0).val = i.val
      unfold DotDims.lhsIdx
      rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
      rfl
    | ⟨1, _⟩ => exact (dot_S2048x256_S256x256_S2048x256_1_0_0_1_n_n.lhsIdx_val_of_single rfl _ _).trans hk)
  have er : dot_S2048x256_S256x256_S2048x256_1_0_0_1_n_n.rhsIdx (ix2 i j) ((contrEquiv1 dot_S2048x256_S256x256_S2048x256_1_0_0_1_n_n 256 rfl rfl).symm k) = ix2 k j := funext fun a => Fin.ext (by
    match a with
    | ⟨0, _⟩ => exact (dot_S2048x256_S256x256_S2048x256_1_0_0_1_n_n.rhsIdx_val_of_single rfl _ _).trans hk
    | ⟨1, _⟩ =>
      show (dot_S2048x256_S256x256_S2048x256_1_0_0_1_n_n.rhsIdx (ix2 i j) _ 1).val = j.val
      unfold DotDims.rhsIdx
      rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
      rfl)
  rw [el, er]

/-! ## A column reduction of a [2048, 512] tile, spread back over the rows -/

/-- The reduced axis's coordinate put back: row `k` over column `q`. -/
theorem lift_col (h : S2048x512.Reduces [0] S512) (q : Fin 512) (k : Fin 2048) :
    h.lift (ix1 q) k = ix2 k q :=
  funext fun a => Fin.ext (by match a with | ⟨0, _⟩ => rfl | ⟨1, _⟩ => rfl)

/-- The column maximum from -∞, reshaped to a row and broadcast over the 2048 rows, at `(k, q)`: the maximum of
    column `q`. -/
theorem colmax_tile (s : FVec Ideal S2048x512 .f32) (h : S2048x512.Reduces [0] S512)
    (hc : S512.ShapeCasts S1x512) (hb : S1x512.Broadcasts S2048x512) (k : Fin 2048) (q : Fin 512) :
    broadcastTo S2048x512 (shapeCast S1x512 (multiReduction .maximumf [0] S512 s 0xFF800000#32 h (.inl rfl) rfl) hc) hb (ix2 k q)
      = colmax (fun k' => s (ix2 k' q)) := by
  rw [broadcastTo_1b_ab_apply, shapeCast_a_1a_apply]
  refine (Ideal.multiReduction_maximumf_single s 0xFF800000#32 h (.inl rfl) rfl (ix1 q)).trans ?_
  show (Finset.univ : Finset (Fin 2048)).fold max negInf (fun k' => s (h.lift (ix1 q) k')) = _
  unfold colmax
  exact congrArg (fun f => (Finset.univ : Finset (Fin 2048)).fold max negInf f)
    (funext fun k' => congrArg s (lift_col h q k'))

/-- The column sum, reshaped to a row and broadcast over the rows, at `(k, q)`: the sum of column `q`. -/
theorem colsum_tile (p : FVec Ideal S2048x512 .f32) (h : S2048x512.Reduces [0] S512)
    (hc : S512.ShapeCasts S1x512) (hb : S1x512.Broadcasts S2048x512) (k : Fin 2048) (q : Fin 512) :
    broadcastTo S2048x512 (shapeCast S1x512 (multiReduction .add [0] S512 p 0x00000000#32 h (.inl rfl) rfl) hc) hb (ix2 k q)
      = ∑ k' : Fin 2048, p (ix2 k' q) := by
  rw [broadcastTo_1b_ab_apply, shapeCast_a_1a_apply]
  refine (Ideal.multiReduction_add_single p 0x00000000#32 h (.inl rfl) rfl (ix1 q)).trans ?_
  show ∑ k' : Fin 2048, p (h.lift (ix1 q) k') = _
  exact Finset.sum_congr rfl fun k' _ => congrArg p (lift_col h q k')

/-! ## The payloads -/

/-- The score tile. -/
def scoreTile (x0 : Vec Ideal S1x2048x256 .f32) (x1 : Vec Ideal S1x512x256 .f32) : FVec Ideal S2048x512 .f32 :=
  matmul dot_S2048x256_S256x512_S2048x512_1_0_0_1_n_n (some .fp32) (shapeCast S2048x256 x0 : FVec Ideal S2048x256 .f32)
    (transpose S256x512 [1, 0] (k0_pay3 x1) : FVec Ideal S256x512 .f32) (constant S2048x512 .f32 0x00000000#32)

theorem scoreTile_apply (x0 : Vec Ideal S1x2048x256 .f32) (x1 : Vec Ideal S1x512x256 .f32) (k : Fin 2048) (q : Fin 512) :
    scoreTile x0 x1 (ix2 k q) = ∑ d : Fin 256, x0 (ix3 (0 : Fin 1) k d) * x1 (ix3 (0 : Fin 1) q d) := by
  unfold scoreTile
  rw [mm_score]
  refine Finset.sum_congr rfl fun d _ => ?_
  rw [shapeCast_1ab_ab_apply, transpose_ix2_apply]
  unfold k0_pay3
  rw [shapeCast_1ab_ab_apply]

/-- A tile's column maxima spread over the rows. -/
def mxTile (s : FVec Ideal S2048x512 .f32) : FVec Ideal S2048x512 .f32 :=
  broadcastTo S2048x512 (shapeCast S1x512 (multiReduction .maximumf [0] S512 s 0xFF800000#32 (by decide) (.inl rfl) rfl))

theorem mxTile_apply (s : FVec Ideal S2048x512 .f32) (k : Fin 2048) (q : Fin 512) :
    mxTile s (ix2 k q) = colmax (fun k' => s (ix2 k' q)) := colmax_tile s _ _ _ k q

/-- A tile's column sums spread over the rows. -/
def smTile (p : FVec Ideal S2048x512 .f32) : FVec Ideal S2048x512 .f32 :=
  broadcastTo S2048x512 (shapeCast S1x512 (multiReduction .add [0] S512 p 0x00000000#32 (by decide) (.inl rfl) rfl))

theorem smTile_apply (p : FVec Ideal S2048x512 .f32) (k : Fin 2048) (q : Fin 512) :
    smTile p (ix2 k q) = ∑ k' : Fin 2048, p (ix2 k' q) := colsum_tile p _ _ _ k q

/-- The softmax tile, through the score tile. -/
theorem pay4_eq (x0 : Vec Ideal S1x2048x256 .f32) (x1 : Vec Ideal S1x512x256 .f32) :
    k0_pay4 x0 x1
      = divf (exp (subf (scoreTile x0 x1) (mxTile (scoreTile x0 x1))))
          (smTile (exp (subf (scoreTile x0 x1) (mxTile (scoreTile x0 x1))))) := rfl

/-- The softmax tile at `(k, q)`: the softmax of column `q` of the scores, at row `k`. -/
theorem pay4_apply (x0 : Vec Ideal S1x2048x256 .f32) (x1 : Vec Ideal S1x512x256 .f32) (k : Fin 2048) (q : Fin 512) :
    k0_pay4 x0 x1 (ix2 k q)
      = softcol (fun k' => ∑ d : Fin 256, x0 (ix3 (0 : Fin 1) k' d) * x1 (ix3 (0 : Fin 1) q d)) k := by
  rw [pay4_eq]
  generalize hs : scoreTile x0 x1 = s
  have es : ∀ k', s (ix2 k' q) = ∑ d : Fin 256, x0 (ix3 (0 : Fin 1) k' d) * x1 (ix3 (0 : Fin 1) q d) :=
    fun k' => by rw [← hs]; exact scoreTile_apply x0 x1 k' q
  rw [divf_apply, smTile_apply]
  simp only [exp, subf, mxTile_apply, es]
  rfl

/-- The attention block stored: the softmax tile under a leading unit axis. -/
theorem pay5_apply (x0 : Vec Ideal S1x2048x256 .f32) (x1 : Vec Ideal S1x512x256 .f32) (u : Fin 1) (k : Fin 2048) (q : Fin 512) :
    k0_pay5 x0 x1 (ix3 u k q) = k0_pay4 x0 x1 (ix2 k q) := by
  unfold k0_pay5
  exact shapeCast_ab_1ab_apply _ _ u k q

/-- The accumulator after a tile: its contents before plus the tile's attention-weighted queries. -/
theorem pay6_apply (x0 : Vec Ideal S1x2048x256 .f32) (x1 : Vec Ideal S1x512x256 .f32) (acc : Vec Ideal S2048x256 .f32)
    (k : Fin 2048) (d : Fin 256) :
    k0_pay6 x0 x1 acc (ix2 k d) = acc (ix2 k d) + ∑ q : Fin 512, k0_pay4 x0 x1 (ix2 k q) * x1 (ix3 (0 : Fin 1) q d) := by
  have e : k0_pay6 x0 x1 acc
      = shapeCast S2048x256 (addf acc (matmul dot_S2048x512_S512x256_S2048x256_1_0_0_1_n_n none
          (truncf (φ := .f32) .bf16 (k0_pay4 x0 x1)) (truncf (φ := .f32) .bf16 (k0_pay3 x1)) (constant S2048x256 .f32 0x00000000#32))) := rfl
  rw [e, shapeCast_self, addf_apply, mm_energy]
  refine congrArg (acc (ix2 k d) + ·) (Finset.sum_congr rfl fun q _ => ?_)
  rw [truncf_apply, truncf_apply]
  unfold k0_pay3
  rw [shapeCast_1ab_ab_apply]

/-- The zero block the accumulator restarts from. -/
theorem pay1_apply (k : Fin 2048) (d : Fin 256) : k0_pay1 (F := Ideal) (ix2 k d) = 0 := by
  have e : k0_pay1 (F := Ideal) = shapeCast S2048x256 (broadcast S2048x256 (Scalar.ofBits (F := Ideal) .f32 0x00000000#32)) := rfl
  rw [e, shapeCast_self]
  exact Ideal.ofBits_zero_f32

/-- The cached key block: the key block without its leading unit axis. -/
theorem pay2_apply (x0 : Vec Ideal S1x2048x256 .f32) (k : Fin 2048) (d : Fin 256) :
    k0_pay2 x0 (ix2 k d) = x0 (ix3 (0 : Fin 1) k d) := by
  have e : k0_pay2 x0 = shapeCast S2048x256 (truncf (φ := .f32) .bf16 (shapeCast S2048x256 x0 : FVec Ideal S2048x256 .f32)) := rfl
  rw [e, shapeCast_self, truncf_apply, shapeCast_1ab_ab_apply]

/-- The bias row spread over the 2048 rows. -/
theorem bias_tile (b : Vec Ideal S256 .f32) (hc : S256.ShapeCasts S1x256) (hb : S1x256.Broadcasts S2048x256)
    (k : Fin 2048) (d : Fin 256) :
    broadcastTo S2048x256 (shapeCast S1x256 b hc) hb (ix2 k d) = b (ix1 d) := by
  rw [broadcastTo_1b_ab_apply, shapeCast_a_1a_apply]

/-- The output block: the final linear layer and tanh. -/
theorem pay7_apply (e : Vec Ideal S2048x256 .f32) (w1 w2 : Vec Ideal S256x256 .f32) (kc : Vec Ideal S2048x256 .bf16)
    (b : Vec Ideal S256 .f32) (u : Fin 1) (k : Fin 2048) (d : Fin 256) :
    k0_pay7 e w1 w2 kc b (ix3 u k d)
      = Ideal.tanh ((∑ e' : Fin 256, e (ix2 k e') * w1 (ix2 e' d) + ∑ e' : Fin 256, kc (ix2 k e') * w2 (ix2 e' d)) + b (ix1 d)) := by
  have eq : k0_pay7 e w1 w2 kc b
      = shapeCast S1x2048x256 (tanh (addf (addf
          (matmul dot_S2048x256_S256x256_S2048x256_1_0_0_1_n_n none (truncf (φ := .f32) .bf16 (e : FVec Ideal S2048x256 .f32)) (truncf (φ := .f32) .bf16 (shapeCast S256x256 w1 : FVec Ideal S256x256 .f32)) (constant S2048x256 .f32 0x00000000#32))
          (matmul dot_S2048x256_S256x256_S2048x256_1_0_0_1_n_n none (kc : FVec Ideal S2048x256 .bf16) (truncf (φ := .f32) .bf16 (shapeCast S256x256 w2 : FVec Ideal S256x256 .f32)) (constant S2048x256 .f32 0x00000000#32)))
          (broadcastTo S2048x256 (shapeCast S1x256 b : FVec Ideal S1x256 .f32)))) := rfl
  rw [eq, shapeCast_ab_1ab_apply]
  show Ideal.tanh _ = _
  refine congrArg Ideal.tanh ?_
  rw [addf_apply, addf_apply, mm_linear, mm_linear, bias_tile]
  simp only [truncf_apply, shapeCast_self]

end Cert.KernelIdeal.Payload

end
-- ==== Proof.KernelBridge.lean ====
/-
  From tiles to the whole attention layer.  If a key block holds the keys of batch b and a query tile holds the
  queries 512 j … 512 j + 511 of batch b, then the softmax tile the body computes is attn (b, ·, 512 j + ·), and the
  tile's contribution to the accumulator is Σ_q' attn (b, k, 512 j + q') · query (b, 512 j + q', d).  Four tiles'
  contributions added from zero are the energy (a sum over the 2048 queries is the sum of its four tiles), and the final
  layer over the accumulated energy, the cached keys and the two transposed halves of W is the layer's output (a sum over
  the 512 concatenated features is the sum of its two halves).  Only commutativity and associativity of the extended
  reals' addition are used.
-/
import proofs.«166310_j5214090297909_2_alg».proof.Proof.KernelPayload

noncomputable section

open Idealize.ShloMosaic Idealize.ShloMosaic.ValueIdx

namespace Cert.KernelIdeal.Bridge

open Cert.KernelIdeal Cert.KernelIdeal.Gen Cert.KernelIdeal.Payload Cert.AttnSpec

variable (K Q : Arr3) (b : Fin 16)

/-- The softmax tile of tile `j` is the layer's attention at the tile's queries. -/
theorem attn_tile (x0 : Vec Ideal S1x2048x256 .f32) (x1 : Vec Ideal S1x512x256 .f32) (j : Fin 4)
    (h0 : ∀ k d, x0 (ix3 (0 : Fin 1) k d) = K (ix3 b k d))
    (h1 : ∀ q d, x1 (ix3 (0 : Fin 1) q d) = Q (ix3 b (qidx j q) d)) (k : Fin 2048) (q : Fin 512) :
    k0_pay4 x0 x1 (ix2 k q) = attn K Q b k (qidx j q) := by
  rw [pay4_apply]
  unfold attn score
  simp only [h0, h1]

/-- A tile's step of the accumulator. -/
theorem energy_tile (x0 : Vec Ideal S1x2048x256 .f32) (x1 : Vec Ideal S1x512x256 .f32) (j : Fin 4)
    (h0 : ∀ k d, x0 (ix3 (0 : Fin 1) k d) = K (ix3 b k d))
    (h1 : ∀ q d, x1 (ix3 (0 : Fin 1) q d) = Q (ix3 b (qidx j q) d))
    (acc : Vec Ideal S2048x256 .f32) (k : Fin 2048) (d : Fin 256) :
    k0_pay6 x0 x1 acc (ix2 k d)
      = acc (ix2 k d) + ∑ q : Fin 512, attn K Q b k (qidx j q) * Q (ix3 b (qidx j q) d) := by
  rw [pay6_apply]
  simp only [attn_tile K Q b x0 x1 j h0 h1, h1]

/-- Four tiles' steps from zero: the energy. -/
theorem energy_four (x00 x01 x02 x03 : Vec Ideal S1x2048x256 .f32) (x10 x11 x12 x13 : Vec Ideal S1x512x256 .f32)
    (hk0 : ∀ k d, x00 (ix3 (0 : Fin 1) k d) = K (ix3 b k d)) (hk1 : ∀ k d, x01 (ix3 (0 : Fin 1) k d) = K (ix3 b k d))
    (hk2 : ∀ k d, x02 (ix3 (0 : Fin 1) k d) = K (ix3 b k d)) (hk3 : ∀ k d, x03 (ix3 (0 : Fin 1) k d) = K (ix3 b k d))
    (hq0 : ∀ q d, x10 (ix3 (0 : Fin 1) q d) = Q (ix3 b (qidx 0 q) d)) (hq1 : ∀ q d, x11 (ix3 (0 : Fin 1) q d) = Q (ix3 b (qidx 1 q) d))
    (hq2 : ∀ q d, x12 (ix3 (0 : Fin 1) q d) = Q (ix3 b (qidx 2 q) d)) (hq3 : ∀ q d, x13 (ix3 (0 : Fin 1) q d) = Q (ix3 b (qidx 3 q) d))
    (k : Fin 2048) (d : Fin 256) :
    k0_pay6 x03 x13 (k0_pay6 x02 x12 (k0_pay6 x01 x11 (k0_pay6 x00 x10 (k0_pay1 (F := Ideal))))) (ix2 k d)
      = energy K Q b k d := by
  rw [energy_tile K Q b x03 x13 3 hk3 hq3, energy_tile K Q b x02 x12 2 hk2 hq2, energy_tile K Q b x01 x11 1 hk1 hq1,
    energy_tile K Q b x00 x10 0 hk0 hq0, pay1_apply, zero_add]
  unfold energy
  exact (sum_tiles (fun q => attn K Q b k q * Q (ix3 b q d))).symm

/-- The output block of a batch: the layer's output. -/
theorem out_block (x00 x01 x02 x03 : Vec Ideal S1x2048x256 .f32) (x10 x11 x12 x13 : Vec Ideal S1x512x256 .f32)
    (w1 w2 : Vec Ideal S256x256 .f32) (bias : Vec Ideal S256 .f32) (W : ArrW) (B : ArrB)
    (hk0 : ∀ k d, x00 (ix3 (0 : Fin 1) k d) = K (ix3 b k d)) (hk1 : ∀ k d, x01 (ix3 (0 : Fin 1) k d) = K (ix3 b k d))
    (hk2 : ∀ k d, x02 (ix3 (0 : Fin 1) k d) = K (ix3 b k d)) (hk3 : ∀ k d, x03 (ix3 (0 : Fin 1) k d) = K (ix3 b k d))
    (hq0 : ∀ q d, x10 (ix3 (0 : Fin 1) q d) = Q (ix3 b (qidx 0 q) d)) (hq1 : ∀ q d, x11 (ix3 (0 : Fin 1) q d) = Q (ix3 b (qidx 1 q) d))
    (hq2 : ∀ q d, x12 (ix3 (0 : Fin 1) q d) = Q (ix3 b (qidx 2 q) d)) (hq3 : ∀ q d, x13 (ix3 (0 : Fin 1) q d) = Q (ix3 b (qidx 3 q) d))
    (hw1 : ∀ e d, w1 (ix2 e d) = W (ix2 d (wlo e))) (hw2 : ∀ e d, w2 (ix2 e d) = W (ix2 d (whi e)))
    (hb : ∀ d, bias (ix1 d) = B (ix1 d)) (u : Fin 1) (k : Fin 2048) (d : Fin 256) :
    k0_pay7 (k0_pay6 x03 x13 (k0_pay6 x02 x12 (k0_pay6 x01 x11 (k0_pay6 x00 x10 (k0_pay1 (F := Ideal))))))
        w1 w2 (k0_pay2 x00) bias (ix3 u k d)
      = out K Q W B b k d := by
  rw [pay7_apply]
  unfold out
  simp only [energy_four K Q b x00 x01 x02 x03 x10 x11 x12 x13 hk0 hk1 hk2 hk3 hq0 hq1 hq2 hq3, pay2_apply, hk0, hw1, hw2, hb]

end Cert.KernelIdeal.Bridge

end
-- ==== Proof.KernelValue.lean ====
/-
  The two result arrays of the attention kernel after its run, as the attention layer of the argument arrays.
  The grid has 64 points: point t handles batch t / 4 and query tile t % 4.  Its key block is the batch's keys, its
  query tile the queries 512 (t % 4) … of the batch, the two weight blocks are the whole transposed halves of W (the
  host operations before the call slice W by columns and transpose), the bias block is the bias.  Every point writes
  its attention block back, block (t / 4, 0, t % 4) of the attention array; these 64 blocks tile it.  The output block
  is written back only after a batch's last tile, block (t / 4, 0, 0) of the output array; the 16 of them tile it.
-/
import proofs.«166310_j5214090297909_2_alg».proof.Proof.Gen.KernelIdeal.Value
import proofs.«166310_j5214090297909_2_alg».proof.Proof.KernelPoints
import proofs.«166310_j5214090297909_2_alg».proof.Proof.KernelBridge
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.AttnValue

open Cert.KernelIdeal Cert.KernelIdeal.Gen Cert.KernelIdeal.Payload Cert.KernelIdeal.Bridge Cert.KernelIdeal.AtPoint Cert.AttnSpec

variable (m : (ℓ : Loc nD τ sig) → Buf (Elt Ideal) ℓ) (ρ : Dev nD → PrngReg)

/-- The printed index maps over the grid: point `t` is batch `t / 4`, tile `t % 4`. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 3) = t.val / 4 ∧ win0_5.index t (1 : Fin 3) = 0 ∧ win0_5.index t (2 : Fin 3) = 0
    ∧ win0_6.index t (0 : Fin 3) = t.val / 4 ∧ win0_6.index t (1 : Fin 3) = 0 ∧ win0_6.index t (2 : Fin 3) = t.val % 4 :=
  (by decide +kernel : ∀ t : Fin grid0.N, _)

/-! ## The input blocks -/

/-- Point `t`'s key block is batch `t / 4`'s keys. -/
theorem key_block (c : Dev nD) (t : Fin cfg0.N) (b : Fin 16) (hb : b.val = t.val / 4) (u : Fin 1) (k : Fin 2048) (d : Fin 256) :
    iblk m c 0 t (ix3 u k d) = (m ((c : Thread nD τ).loc main_arg0)) (ix3 b k d) := by
  obtain ⟨e0, e1, e2, -⟩ := idx_facts t
  unfold iblk
  rw [View.read_apply]
  show V m c main_arg0 _ = _
  rw [V_main_arg0]
  refine congrArg (m ((c : Thread nD τ).loc main_arg0)) (funext fun a => Fin.ext ?_)
  have hu := u.isLt
  match a with
  | ⟨0, _⟩ => show win0_0.index t (0 : Fin 3) * 1 + 1 * u.val = b.val; rw [e0, hb]; omega
  | ⟨1, _⟩ => show win0_0.index t (1 : Fin 3) * 2048 + 1 * k.val = k.val; rw [e1]; omega
  | ⟨2, _⟩ => show win0_0.index t (2 : Fin 3) * 256 + 1 * d.val = d.val; rw [e2]; omega

/-- Point `t`'s query tile is tile `t % 4` of batch `t / 4`'s queries. -/
theorem query_block (c : Dev nD) (t : Fin cfg0.N) (b : Fin 16) (j : Fin 4) (hb : b.val = t.val / 4) (hj : j.val = t.val % 4)
    (u : Fin 1) (q : Fin 512) (d : Fin 256) :
    iblk m c 1 t (ix3 u q d) = (m ((c : Thread nD τ).loc main_arg1)) (ix3 b (qidx j q) d) := by
  obtain ⟨-, -, -, e0, e1, e2, -⟩ := idx_facts t
  unfold iblk
  rw [View.read_apply]
  show V m c main_arg1 _ = _
  rw [V_main_arg1]
  refine congrArg (m ((c : Thread nD τ).loc main_arg1)) (funext fun a => Fin.ext ?_)
  have hu := u.isLt
  match a with
  | ⟨0, _⟩ => show win0_1.index t (0 : Fin 3) * 1 + 1 * u.val = b.val; rw [e0, hb]; omega
  | ⟨1, _⟩ => show win0_1.index t (1 : Fin 3) * 512 + 1 * q.val = 512 * j.val + q.val; rw [e1, hj]; omega
  | ⟨2, _⟩ => show win0_1.index t (2 : Fin 3) * 256 + 1 * d.val = d.val; rw [e2]; omega

/-- The first weight operand as the host operations leave it: the first 256 columns of W, transposed. -/
theorem w1_host (c : Dev nD) (e d : Fin 256) : V m c main_v1 (ix2 e d) = (m ((c : Thread nD τ).loc main_arg2)) (ix2 d (wlo e)) := by
  have h : (V m c main_v1 : S256x256.Idx → EReal)
      = transpose S256x256 [1, 0] (extractStridedSlice S256x256 ![0, 0] ((m ((c : Thread nD τ).loc main_arg2)) : S256x512.Idx → EReal) Facts₀.slices_S256x512_S256x256_0_0) Facts₀.transposes_S256x256_S256x256_1_0 := by
    dsimp only [Gen.V, Gen.hostOps0]; after_results <;> rfl
  rw [h, transpose_ix2_apply]
  exact slice2_axis1_apply 0 _ _ d e (wlo e) (by rw [wlo_val]; omega)

/-- The second weight operand: the last 256 columns of W, transposed. -/
theorem w2_host (c : Dev nD) (e d : Fin 256) : V m c main_v3 (ix2 e d) = (m ((c : Thread nD τ).loc main_arg2)) (ix2 d (whi e)) := by
  have h : (V m c main_v3 : S256x256.Idx → EReal)
      = transpose S256x256 [1, 0] (extractStridedSlice S256x256 ![0, 256] ((m ((c : Thread nD τ).loc main_arg2)) : S256x512.Idx → EReal) Facts₀.slices_S256x512_S256x256_0_256) Facts₀.transposes_S256x256_S256x256_1_0 := by
    dsimp only [Gen.V, Gen.hostOps0]; after_results <;> rfl
  rw [h, transpose_ix2_apply]
  exact slice2_axis1_apply 256 _ _ d e (whi e) (by rw [whi_val])

/-- Every point's first weight block is the whole first operand. -/
theorem w1_block (c : Dev nD) (t : Fin cfg0.N) (e d : Fin 256) : iblk m c 2 t (ix2 e d) = (m ((c : Thread nD τ).loc main_arg2)) (ix2 d (wlo e)) := by
  obtain ⟨-, -, -, -, -, -, e0, e1, -⟩ := idx_facts t
  unfold iblk
  rw [View.read_apply]
  show V m c main_v1 _ = _
  refine (congrArg (V m c main_v1) (funext fun a => Fin.ext ?_)).trans (w1_host m c e d)
  match a with
  | ⟨0, _⟩ => show win0_2.index t (0 : Fin 2) * 256 + 1 * e.val = e.val; rw [e0]; omega
  | ⟨1, _⟩ => show win0_2.index t (1 : Fin 2) * 256 + 1 * d.val = d.val; rw [e1]; omega

/-- Every point's second weight block is the whole second operand. -/
theorem w2_block (c : Dev nD) (t : Fin cfg0.N) (e d : Fin 256) : iblk m c 3 t (ix2 e d) = (m ((c : Thread nD τ).loc main_arg2)) (ix2 d (whi e)) := by
  obtain ⟨-, -, -, -, -, -, -, -, e0, e1, -⟩ := idx_facts t
  unfold iblk
  rw [View.read_apply]
  show V m c main_v3 _ = _
  refine (congrArg (V m c main_v3) (funext fun a => Fin.ext ?_)).trans (w2_host m c e d)
  match a with
  | ⟨0, _⟩ => show win0_3.index t (0 : Fin 2) * 256 + 1 * e.val = e.val; rw [e0]; omega
  | ⟨1, _⟩ => show win0_3.index t (1 : Fin 2) * 256 + 1 * d.val = d.val; rw [e1]; omega

/-- Every point's bias block is the bias. -/
theorem bias_block (c : Dev nD) (t : Fin cfg0.N) (d : Fin 256) : iblk m c 4 t (ix1 d) = (m ((c : Thread nD τ).loc main_arg3)) (ix1 d) := by
  obtain ⟨-, -, -, -, -, -, -, -, -, -, e0, -⟩ := idx_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_4.index t (0 : Fin 1) * 256 + 1 * d.val = d.val; rw [e0]; omega

/-! ## The attention array -/

/-- What point `t` writes back to the attention array is its block of the layer's attention weights. -/
theorem flushed6_eq (c : Dev nD) (t : Fin cfg0.N) :
    (dats m 0 c).flushed 6 t = ((cfg0.win 6).blk t).view.read (Elt Ideal) (attnArr (m ((c : Thread nD τ).loc main_arg0)) (m ((c : Thread nD τ).loc main_arg1))) := by
  have hN : t.val < 64 := lt_of_lt_of_eq t.isLt (show cfg0.N = 64 from N_0)
  rw [Value.flushed6, attn_at m c t]
  obtain ⟨-, -, -, -, -, -, -, -, -, -, -, -, -, -, e0, e1, e2⟩ := idx_facts t
  funext y
  show k0_pay5 (iblk m c 0 t) (iblk m c 1 t) y = attnArr (m ((c : Thread nD τ).loc main_arg0)) (m ((c : Thread nD τ).loc main_arg1)) (((cfg0.win 6).blk t).view.emb y)
  obtain ⟨u, k, q, rfl⟩ : ∃ (u : Fin 1) (k : Fin 2048) (q : Fin 512), y = ix3 u k q := ⟨y 0, y 1, y 2, eq_ix3 y⟩
  have hu := u.isLt
  have E : ((cfg0.win 6).blk t).view.emb (ix3 u k q)
      = ix3 (⟨t.val / 4, by omega⟩ : Fin 16) k (qidx (⟨t.val % 4, by omega⟩ : Fin 4) q) := funext fun a => Fin.ext (by
    match a with
    | ⟨0, _⟩ => show win0_6.index t (0 : Fin 3) * 1 + 1 * u.val = t.val / 4; rw [e0]; omega
    | ⟨1, _⟩ => show win0_6.index t (1 : Fin 3) * 2048 + 1 * k.val = k.val; rw [e1]; omega
    | ⟨2, _⟩ => show win0_6.index t (2 : Fin 3) * 512 + 1 * q.val = 512 * (t.val % 4) + q.val; rw [e2]; omega)
  rw [E]
  refine (pay5_apply (iblk m c 0 t) (iblk m c 1 t) u k q).trans ?_
  exact attn_tile (m ((c : Thread nD τ).loc main_arg0)) (m ((c : Thread nD τ).loc main_arg1)) (⟨t.val / 4, by omega⟩ : Fin 16) (iblk m c 0 t) (iblk m c 1 t) (⟨t.val % 4, by omega⟩ : Fin 4)
    (fun k' d => key_block m c t _ rfl 0 k' d) (fun q' d => query_block m c t _ _ rfl rfl 0 q' d) k q

/-- An entry of the attention array is in point `t`'s block iff each coordinate is in the block's range. -/
theorem mem_blk6 (t : Fin cfg0.N) (i : S16x2048x2048.Idx) :
    i ∈ ((cfg0.win 6).blk t).view.set ↔ ∀ a : Fin 3, win0_6.index t a * S1x2048x512.size a ≤ (i a).val ∧ (i a).val < win0_6.index t a * S1x2048x512.size a + S1x2048x512.size a := by
  show i ∈ ((View.whole main_v4_1).slice (win0_6.rect t)).set ↔ _
  rw [View.set_slice_whole, Rect.mem_set_unit]
  exact Iff.rfl

/-- After the run the attention array holds the layer's attention weights. -/
theorem final6 (c : Dev nD) : (dats m 0 c).arrAt 6 cfg0.N = attnArr (m ((c : Thread nD τ).loc main_arg0)) (m ((c : Thread nD τ).loc main_arg1)) :=
  (dats m 0 c).arrAt_eq_of_cover 6 _ (fun t _ => flushed6_eq m c t) fun i => by
    have h0 : (i 0).val < 16 := (i 0).isLt
    have h1 : (i 1).val < 2048 := (i 1).isLt
    have h2 : (i 2).val < 2048 := (i 2).isLt
    have hN : cfg0.N = 64 := N_0
    refine ⟨⟨4 * (i 0).val + (i 2).val / 512, by omega⟩, flush0_6 _, ?_⟩
    obtain ⟨-, -, -, -, -, -, -, -, -, -, -, -, -, -, e0, e1, e2⟩ := idx_facts ⟨4 * (i 0).val + (i 2).val / 512, by omega⟩
    rw [mem_blk6]
    intro a
    match a with
    | ⟨0, _⟩ =>
      show win0_6.index _ (0 : Fin 3) * 1 ≤ (i 0).val ∧ (i 0).val < win0_6.index _ (0 : Fin 3) * 1 + 1
      rw [e0]; dsimp only; omega
    | ⟨1, _⟩ =>
      show win0_6.index _ (1 : Fin 3) * 2048 ≤ (i 1).val ∧ (i 1).val < win0_6.index _ (1 : Fin 3) * 2048 + 2048
      rw [e1]; omega
    | ⟨2, _⟩ =>
      show win0_6.index _ (2 : Fin 3) * 512 ≤ (i 2).val ∧ (i 2).val < win0_6.index _ (2 : Fin 3) * 512 + 512
      rw [e2]; dsimp only; omega

/-! ## The output array -/

/-- What a batch's last point writes back to the output array is its block of the layer's output. -/
theorem flushed5_eq (c : Dev nD) (t : Fin cfg0.N) (hf : (cfg0.win 5).flush t = true) :
    (dats m 0 c).flushed 5 t = ((cfg0.win 5).blk t).view.read (Elt Ideal) (outArr (m ((c : Thread nD τ).loc main_arg0)) (m ((c : Thread nD τ).loc main_arg1)) (m ((c : Thread nD τ).loc main_arg2)) (m ((c : Thread nD τ).loc main_arg3))) := by
  have hN : cfg0.N = 64 := N_0
  have h3 : t.val % 4 = 3 := (flush0_5 t).mp hf
  obtain ⟨n, hn⟩ : ∃ n, t.val = n + 2 + 1 := ⟨t.val - 3, by omega⟩
  obtain ⟨tv, tlt⟩ := t
  dsimp only at hn h3
  subst hn
  have hn0 : n % 4 = 0 := by omega
  have hlt : n + 2 + 1 < 64 := lt_of_lt_of_eq tlt hN
  rw [Value.flushed5]
  dsimp only
  rw [out_at m c n tlt hn0]
  obtain ⟨-, -, -, -, -, -, -, -, -, -, -, e0, e1, e2, -⟩ := idx_facts ⟨n + 2 + 1, tlt⟩
  dsimp only at e0
  funext y
  show k0_pay7 (F := Ideal) _ _ _ _ _ y = outArr (m ((c : Thread nD τ).loc main_arg0)) (m ((c : Thread nD τ).loc main_arg1)) (m ((c : Thread nD τ).loc main_arg2)) (m ((c : Thread nD τ).loc main_arg3)) (((cfg0.win 5).blk ⟨n + 2 + 1, tlt⟩).view.emb y)
  obtain ⟨u, k, d, rfl⟩ : ∃ (u : Fin 1) (k : Fin 2048) (d : Fin 256), y = ix3 u k d := ⟨y 0, y 1, y 2, eq_ix3 y⟩
  have hu := u.isLt
  have E : ((cfg0.win 5).blk ⟨n + 2 + 1, tlt⟩).view.emb (ix3 u k d) = ix3 (⟨n / 4, by omega⟩ : Fin 16) k d := funext fun a => Fin.ext (by
    match a with
    | ⟨0, _⟩ => show win0_5.index _ (0 : Fin 3) * 1 + 1 * u.val = n / 4; rw [e0]; omega
    | ⟨1, _⟩ => show win0_5.index _ (1 : Fin 3) * 2048 + 1 * k.val = k.val; rw [e1]; omega
    | ⟨2, _⟩ => show win0_5.index _ (2 : Fin 3) * 256 + 1 * d.val = d.val; rw [e2]; omega)
  rw [E]
  exact out_block (m ((c : Thread nD τ).loc main_arg0)) (m ((c : Thread nD τ).loc main_arg1)) (⟨n / 4, by omega⟩ : Fin 16) _ _ _ _ _ _ _ _ _ _ _ (m ((c : Thread nD τ).loc main_arg2)) (m ((c : Thread nD τ).loc main_arg3))
    (fun k' d' => key_block m c _ _ (by (try dsimp only) <;> omega) 0 k' d')
    (fun k' d' => key_block m c _ _ (by (try dsimp only) <;> omega) 0 k' d')
    (fun k' d' => key_block m c _ _ (by (try dsimp only) <;> omega) 0 k' d')
    (fun k' d' => key_block m c _ _ (by (try dsimp only) <;> omega) 0 k' d')
    (fun q' d' => query_block m c _ _ 0 (by (try dsimp only) <;> omega) (by (try dsimp only) <;> omega) 0 q' d')
    (fun q' d' => query_block m c _ _ 1 (by (try dsimp only) <;> omega) (by (try dsimp only) <;> omega) 0 q' d')
    (fun q' d' => query_block m c _ _ 2 (by (try dsimp only) <;> omega) (by (try dsimp only) <;> omega) 0 q' d')
    (fun q' d' => query_block m c _ _ 3 (by (try dsimp only) <;> omega) (by (try dsimp only) <;> omega) 0 q' d')
    (fun e' d' => w1_block m c _ e' d') (fun e' d' => w2_block m c _ e' d') (fun d' => bias_block m c _ d') u k d

/-- An entry of the output array is in point `t`'s block iff each coordinate is in the block's range. -/
theorem mem_blk5 (t : Fin cfg0.N) (i : S16x2048x256.Idx) :
    i ∈ ((cfg0.win 5).blk t).view.set ↔ ∀ a : Fin 3, win0_5.index t a * S1x2048x256.size a ≤ (i a).val ∧ (i a).val < win0_5.index t a * S1x2048x256.size a + S1x2048x256.size a := by
  show i ∈ ((View.whole main_v4_0).slice (win0_5.rect t)).set ↔ _
  rw [View.set_slice_whole, Rect.mem_set_unit]
  exact Iff.rfl

/-- After the run the output array holds the layer's output. -/
theorem final5 (c : Dev nD) : (dats m 0 c).arrAt 5 cfg0.N = outArr (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t hf => flushed5_eq m c t hf) fun i => by
    have h0 : (i 0).val < 16 := (i 0).isLt
    have h1 : (i 1).val < 2048 := (i 1).isLt
    have h2 : (i 2).val < 256 := (i 2).isLt
    have hN : cfg0.N = 64 := N_0
    refine ⟨⟨4 * (i 0).val + 3, by omega⟩, (flush0_5 _).mpr (by (try dsimp only) <;> omega), ?_⟩
    obtain ⟨-, -, -, -, -, -, -, -, -, -, -, e0, e1, e2, -⟩ := idx_facts ⟨4 * (i 0).val + 3, by omega⟩
    rw [mem_blk5]
    intro a
    match a with
    | ⟨0, _⟩ =>
      show win0_5.index _ (0 : Fin 3) * 1 ≤ (i 0).val ∧ (i 0).val < win0_5.index _ (0 : Fin 3) * 1 + 1
      rw [e0]; dsimp only; omega
    | ⟨1, _⟩ =>
      show win0_5.index _ (1 : Fin 3) * 2048 ≤ (i 1).val ∧ (i 1).val < win0_5.index _ (1 : Fin 3) * 2048 + 2048
      rw [e1]; omega
    | ⟨2, _⟩ =>
      show win0_5.index _ (2 : Fin 3) * 256 ≤ (i 2).val ∧ (i 2).val < win0_5.index _ (2 : Fin 3) * 256 + 256
      rw [e2]; omega

/-! ## The run -/

/-- Every weakly fair execution of the kernel's program ends with the two result arrays at the attention layer of
    the argument arrays, and the arguments unchanged. -/
theorem run : θ_run defs (onTc (τ := τ) (main (F := Ideal))) ⟨m, fun _ => 0, ρ⟩ fun r => ∀ c : Dev nD,
      r.2.mem ((c : Thread nD τ).loc main_v4_0) = outArr (m ((c : Thread nD τ).loc main_arg0)) (m ((c : Thread nD τ).loc main_arg1)) (m ((c : Thread nD τ).loc main_arg2)) (m ((c : Thread nD τ).loc main_arg3))
      ∧ r.2.mem ((c : Thread nD τ).loc main_v4_1) = attnArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final5 m c), (h c).2.1.trans (final6 m c), (h c).2.2⟩)
    (Value.run_blocks m ρ)

end Cert.KernelIdeal.AttnValue

end
-- ==== Proof.RefValue.lean ====
/-
  The reference computes the attention layer.  Its operations, read at an entry one after the other: the batched
  product of keys and queries is the score; the maximum over the key axis from -∞ (taken once more against -∞,
  which changes nothing) is the column maximum; the exponential of the difference over its sum along the key axis is the
  column softmax; the batched product with the queries is the energy; the energy and the keys concatenated along the
  feature axis and contracted with W split into the two halves' sums; the bias is added and tanh applied.
-/
import proofs.«166310_j5214090297909_2_alg».proof.Proof.Gen.ReferenceIdeal.Read
import proofs.«166310_j5214090297909_2_alg».proof.Proof.AttnSpec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.AttnRef

open Cert.ReferenceIdeal Cert.ReferenceIdeal.Gen Cert.ReferenceIdeal.Read Cert.AttnSpec

variable (K Q : (⟨S16x2048x256, .f32⟩ : BufTy).Contents (Elt Ideal))

/-- The scores. -/
theorem v0_at (b : Fin 16) (k q : Fin 2048) : val_main_v0 (F := Ideal) K Q (ix3 b k q) = score K Q b k q := by
  rw [val_main_v0_apply]
  unfold score
  refine Finset.sum_congr rfl fun d _ => ?_
  have el : lidx_main_v0 (ix3 b k q) d = ix3 b k d :=
    funext fun a => Fin.ext (by match a with | ⟨0, _⟩ => rfl | ⟨1, _⟩ => rfl | ⟨2, _⟩ => rfl)
  have er : ridx_main_v0 (ix3 b k q) d = ix3 b q d :=
    funext fun a => Fin.ext (by match a with | ⟨0, _⟩ => rfl | ⟨1, _⟩ => rfl | ⟨2, _⟩ => rfl)
  rw [el, er]

/-- The maximum along the key axis: the column maximum of the scores. -/
theorem v1_at (b : Fin 16) (q : Fin 2048) :
    val_main_v1 (F := Ideal) K Q (ix2 b q) = colmax (fun k' => score K Q b k' q) := by
  unfold val_main_v1
  have hv : ∀ k', val_main_v0 (F := Ideal) K Q (ix3 b k' q) = score K Q b k' q := fun k' => v0_at K Q b k' q
  generalize val_main_v0 (F := Ideal) K Q = y at hv
  have hR : S16x2048x2048.Reduces [1] S16x2048 := by decide
  refine (Host.reduce_eq_fold_single (FloatOps.maximumf (F := Ideal) (φ := .f32)) y _ reducesTo_S16x2048x2048_S16x2048_d1 hR h_S_ (ix2 b q)).trans ?_
  show (Finset.univ : Finset (Fin 2048)).fold max negInf (fun k' => y (hR.lift (ix2 b q) k')) = _
  unfold colmax
  refine congrArg (fun f => (Finset.univ : Finset (Fin 2048)).fold max negInf f) (funext fun (k' : Fin 2048) => ?_)
  have e : hR.lift (ix2 b q) k' = ix3 b k' q :=
    funext fun a => Fin.ext (by match a with | ⟨0, _⟩ => rfl | ⟨1, _⟩ => rfl | ⟨2, _⟩ => rfl)
  exact (congrArg y e).trans (hv k')

/-- The maximum, broadcast back over the key axis. -/
theorem v5_at (b : Fin 16) (k q : Fin 2048) :
    val_main_v5 (F := Ideal) K Q (ix3 b k q) = colmax (fun k' => score K Q b k' q) := by
  rw [val_main_v5_apply, val_main_v4_apply, val_main_v3_apply, val_main_v2_apply, val_main_cst_0_apply]
  have e : idx_main_v4 (idx_main_v5 (ix3 b k q)) = ix2 b q :=
    funext fun a => Fin.ext (by match a with | ⟨0, _⟩ => rfl | ⟨1, _⟩ => rfl)
  rw [e, v1_at]
  exact max_negInf _

/-- The exponentials. -/
theorem v7_at (b : Fin 16) (k q : Fin 2048) :
    val_main_v7 (F := Ideal) K Q (ix3 b k q)
      = Ideal.exp (score K Q b k q - colmax (fun k' => score K Q b k' q)) := by
  rw [val_main_v7_apply, val_main_v6_apply, v0_at, v5_at]
  rfl

/-- Their sum along the key axis, broadcast back. -/
theorem v10_at (b : Fin 16) (k q : Fin 2048) :
    val_main_v10 (F := Ideal) K Q (ix3 b k q)
      = ∑ k' : Fin 2048, Ideal.exp (score K Q b k' q - colmax (fun k'' => score K Q b k'' q)) := by
  rw [val_main_v10_apply, val_main_v9_apply, val_main_v8_apply, val_main_cst_1_apply]
  have e : idx_main_v9 (idx_main_v10 (ix3 b k q)) = ix2 b q :=
    funext fun a => Fin.ext (by match a with | ⟨0, _⟩ => rfl | ⟨1, _⟩ => rfl)
  rw [e]
  show Ideal.ofBits .f32 0x00000000#32 + _ = _
  rw [Ideal.ofBits_zero_f32, zero_add]
  refine Finset.sum_congr rfl fun k' _ => ?_
  have e8 : idx_main_v8 (ix2 b q) k' = ix3 b k' q :=
    funext fun a => Fin.ext (by match a with | ⟨0, _⟩ => rfl | ⟨1, _⟩ => rfl | ⟨2, _⟩ => rfl)
  rw [e8, v7_at]

/-- The attention weights: the column softmax of the scores. -/
theorem v11_at (b : Fin 16) (k q : Fin 2048) : val_main_v11 (F := Ideal) K Q (ix3 b k q) = attn K Q b k q := by
  rw [val_main_v11_apply, v7_at, v10_at]
  rfl

/-- The energy. -/
theorem v12_at (b : Fin 16) (k : Fin 2048) (d : Fin 256) :
    val_main_v12 (F := Ideal) K Q (ix3 b k d) = energy K Q b k d := by
  rw [val_main_v12_apply]
  unfold energy
  refine Finset.sum_congr rfl fun q _ => ?_
  have el : lidx_main_v12 (ix3 b k d) q = ix3 b k q :=
    funext fun a => Fin.ext (by match a with | ⟨0, _⟩ => rfl | ⟨1, _⟩ => rfl | ⟨2, _⟩ => rfl)
  have er : ridx_main_v12 (ix3 b k d) q = ix3 b q d :=
    funext fun a => Fin.ext (by match a with | ⟨0, _⟩ => rfl | ⟨1, _⟩ => rfl | ⟨2, _⟩ => rfl)
  rw [el, er, v11_at]

/-- The concatenated features, first half: the energy. -/
theorem v13_lo (b : Fin 16) (k : Fin 2048) (e : Fin 256) :
    val_main_v13 (F := Ideal) K Q (ix3 b k (wlo e)) = energy K Q b k e := by
  unfold val_main_v13
  refine (concatenate_pair_apply_left (t := S16x2048x512) (s₁ := S16x2048x256) (s₂ := S16x2048x256) (2 : Fin 3) _ _ concatenates_S16x2048x256_S16x2048x256_S16x2048x512_d2
    (ix3 b k (wlo e)) rfl (ix3 b k e) (fun a => by match a with | ⟨0, _⟩ => rfl | ⟨1, _⟩ => rfl | ⟨2, _⟩ => rfl)).trans ?_
  exact v12_at K Q b k e

/-- The concatenated features, second half: the keys. -/
theorem v13_hi (b : Fin 16) (k : Fin 2048) (e : Fin 256) :
    val_main_v13 (F := Ideal) K Q (ix3 b k (whi e)) = K (ix3 b k e) := by
  unfold val_main_v13
  exact concatenate_pair_apply_right (t := S16x2048x512) (s₁ := S16x2048x256) (s₂ := S16x2048x256) (2 : Fin 3) _ _ concatenates_S16x2048x256_S16x2048x256_S16x2048x512_d2
    (ix3 b k (whi e)) rfl rfl (ix3 b k e)
    (fun a ha => by match a with | ⟨0, _⟩ => rfl | ⟨1, _⟩ => rfl | ⟨2, _⟩ => exact absurd rfl ha)
    (by show e.val + 256 = 256 + e.val; omega)

variable (W : (⟨S256x512, .f32⟩ : BufTy).Contents (Elt Ideal)) (B : (⟨S256, .f32⟩ : BufTy).Contents (Elt Ideal))

/-- The linear layer: the two halves' sums. -/
theorem v14_at (b : Fin 16) (k : Fin 2048) (d : Fin 256) :
    val_main_v14 (F := Ideal) K Q W (ix3 b k d)
      = ∑ e : Fin 256, energy K Q b k e * W (ix2 d (wlo e)) + ∑ e : Fin 256, K (ix3 b k e) * W (ix2 d (whi e)) := by
  rw [val_main_v14_apply, sum_halves]
  have el : ∀ e : Fin 512, lidx_main_v14 (ix3 b k d) e = ix3 b k e := fun e =>
    funext fun a => Fin.ext (by match a with | ⟨0, _⟩ => rfl | ⟨1, _⟩ => rfl | ⟨2, _⟩ => rfl)
  have er : ∀ e : Fin 512, ridx_main_v14 (ix3 b k d) e = ix2 d e := fun e =>
    funext fun a => Fin.ext (by match a with | ⟨0, _⟩ => rfl | ⟨1, _⟩ => rfl)
  simp only [el, er, v13_lo, v13_hi]

/-- The first result: the layer's output. -/
theorem out_eq : val_main_v18 (F := Ideal) K Q W B = outArr K Q W B := by
  funext i
  obtain ⟨b, k, d, rfl⟩ : ∃ (b : Fin 16) (k : Fin 2048) (d : Fin 256), i = ix3 b k d := ⟨i 0, i 1, i 2, eq_ix3 i⟩
  rw [val_main_v18_apply, val_main_v17_apply, v14_at, val_main_v16_apply, val_main_v15_apply]
  have e : idx_main_v15 (idx_main_v16 (ix3 b k d)) = ix1 d :=
    funext fun a => Fin.ext (by match a with | ⟨0, _⟩ => rfl)
  rw [e]
  rfl

/-- The second result: the attention weights. -/
theorem attn_eq : val_main_v11 (F := Ideal) K Q = attnArr K Q := by
  funext i
  obtain ⟨b, k, q, rfl⟩ : ∃ (b : Fin 16) (k q : Fin 2048), i = ix3 b k q := ⟨i 0, i 1, i 2, eq_ix3 i⟩
  exact v11_at K Q b k q

end Cert.ReferenceIdeal.AttnRef

end
-- ==== Proof.lean ====
/-
  The attention kernel against its reference, over the extended reals.

  Both programs compute, from keys and queries [16, 2048, 256], a weight matrix W [256, 512] and a bias [256]:
    attn (b, k, q) = softmax over the KEY axis k of the scores Σ_d key (b, k, d) · query (b, q, d),
    out (b, k, d)  = tanh (Σ_e energy (b, k, e) · W (d, e) + Σ_e key (b, k, e) · W (d, 256 + e) + bias d),
    energy (b, k, d) = Σ_q attn (b, k, q) · query (b, q, d).
  The kernel walks a (batch, query tile) grid: a tile's softmax is complete because the whole key axis is resident;
  the energy is accumulated over a batch's four tiles and the output block produced at the last one; the two halves
  of W are sliced and transposed before the call.  The reference does the same with whole-array operations.  The two
  differ only in how finite sums are grouped (four tiles of 512 queries; two halves of 512 features) and in format
  changes that are the identity on the extended reals, so the results agree for every input: the finiteness
  precondition is not used.  The three programs' frames are the generated ones (the reference's is its run with the
  results dropped); the idealization rewrote nothing.
-/
import proofs.«166310_j5214090297909_2_alg».proof.Defs
import proofs.«166310_j5214090297909_2_alg».proof.Proof.Gen.Kernel
import proofs.«166310_j5214090297909_2_alg».proof.Proof.Gen.Kernel.Frame
import proofs.«166310_j5214090297909_2_alg».proof.Proof.Gen.KernelIdeal
import proofs.«166310_j5214090297909_2_alg».proof.Proof.Gen.KernelIdeal.Frame
import proofs.«166310_j5214090297909_2_alg».proof.Proof.Gen.KernelIdeal.Value
import proofs.«166310_j5214090297909_2_alg».proof.Proof.Gen.ReferenceIdeal
import proofs.«166310_j5214090297909_2_alg».proof.Proof.Gen.ReferenceIdeal.Run
import proofs.«166310_j5214090297909_2_alg».proof.Proof.Gen.ReferenceIdeal.Read
import proofs.«166310_j5214090297909_2_alg».proof.Proof.Gen.Pre_finite_inputs
import proofs.«166310_j5214090297909_2_alg».proof.Proof.KernelValue
import proofs.«166310_j5214090297909_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the attention layer of their argument arrays, and the arrays agree. -/
theorem algebraic : Cert.algebraic_KernelIdeal_ReferenceIdeal := by
  intro m ρ m' ρ' _ hagree
  refine ⟨_, _, Cert.KernelIdeal.AttnValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, Cert.ReferenceIdeal.AttnRef.out_eq,
      (hagree c).1, (hagree c).2.1, (hagree c).2.2.1, (hagree c).2.2.2]
  · rw [(h c).2.1, Cert.ReferenceIdeal.Read.val_main_v11_eq, Cert.ReferenceIdeal.AttnRef.attn_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
